-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_c_0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_c_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_c) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x85x25200 : Shape := ⟨3, ![32, 85, 25200]⟩
abbrev S_ : Shape := ⟨0, ![]⟩

class Facts : Prop where
  bcast_S_S32x85x25200 : S_.BroadcastsInDim S32x85x25200 (![] : Fin 0 → Fin S32x85x25200.rank)
  reducesTo_S32x85x25200_S_d0_1_2 : S32x85x25200.ReducesTo [0, 1, 2] S_
  h_S_ : 0 < S_.numel

variable [Facts]

def fn {F : FTy → Type} [FloatOps F] (main_arg0 : FVec F S32x85x25200 .f32) : IVec S_ 1 :=
  let main_v0 : FVec F S32x85x25200 .f32 := Host.absf main_arg0
  let main_cst : FVec F S_ .f32 := constant S_ .f32 0x7F800000#32
  let main_v1 : FVec F S32x85x25200 .f32 := broadcastInDim S32x85x25200 ![] bcast_S_S32x85x25200 main_cst
  let main_v2 : IVec S32x85x25200 1 := cmpf .olt main_v0 main_v1
  let main_c : IVec S_ 1 := constantI S_ 1 1#1
  let main_v3 : IVec S_ 1 := (fun x v => Host.reduce IntOp.andi x v reducesTo_S32x85x25200_S_d0_1_2 h_S_) main_v2 main_c
  main_v3
-- ==== Kernel.lean ====
abbrev S32x85x25200 : Shape := ⟨3, ![32, 85, 25200]⟩
abbrev S32x25200 : Shape := ⟨2, ![32, 25200]⟩
abbrev S16x8x25200 : Shape := ⟨3, ![16, 8, 25200]⟩
abbrev S16x25200 : Shape := ⟨2, ![16, 25200]⟩
abbrev S16x1x25200 : Shape := ⟨3, ![16, 1, 25200]⟩
abbrev S_ : Shape := ⟨0, ![]⟩
abbrev S32x25200x4 : Shape := ⟨3, ![32, 25200, 4]⟩

abbrev nBuf : Space → Nat
  | .hbm => 5
  | .vmem => 4
  | .smem => 0
  | _ => 0

abbrev bufTy : (tb : Table) → Fin (tcTables nBuf tb) → BufTy
  | .hbm, ⟨0, _⟩ => ⟨S32x85x25200, .f32⟩
  | .hbm, ⟨1, _⟩ => ⟨S32x25200, .f32⟩
  | .hbm, ⟨2, _⟩ => ⟨S_, .i32⟩
  | .hbm, ⟨3, _⟩ => ⟨S32x25200x4, .i32⟩
  | .hbm, ⟨4, _⟩ => ⟨S_, .i32⟩
  | .local _ .vmem, ⟨0, _⟩ => ⟨S16x8x25200, .f32⟩
  | .local _ .vmem, ⟨1, _⟩ => ⟨S16x8x25200, .f32⟩
  | .local _ .vmem, ⟨2, _⟩ => ⟨S16x25200, .f32⟩
  | .local _ .vmem, ⟨3, _⟩ => ⟨S16x25200, .f32⟩
  | _, _ => ⟨S32x85x25200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_c_0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x8x25200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x25200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S16x8x25200_S16x8x25200_0_0_0 : ∀ a, (![0, 0, 0] : Fin 3 → Nat) a + S16x8x25200.size a ≤ S16x8x25200.size a
  h_S16x8x25200 : 0 < S16x8x25200.numel
  slices_S16x8x25200_o0_4_0_S16x1x25200 : S16x8x25200.Slices ![0, 4, 0] S16x1x25200
  shapeCasts_S16x1x25200_S16x25200 : S16x1x25200.ShapeCasts S16x25200
  inb_S16x25200_S16x25200_0_0 : ∀ a, (![0, 0] : Fin 2 → Nat) a + S16x25200.size a ≤ S16x25200.size a
  h_S16x25200 : 0 < S16x25200.numel
  bcast_S_S32x25200x4 : S_.BroadcastsInDim S32x25200x4 (![] : Fin 0 → Fin S32x25200x4.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16x8x25200.size a < S32x85x25200.size a
  hwx0_0 : ∀ i : grid0.Coords, EltTy.bits .f32 = 32 ∨ (Rect.unit (s := S32x85x25200) (fun a => cc0_transform_0 i a * S16x8x25200.size a) (fun a => (Pipeline.Clip.of (cc0_transform_0 i a) (S16x8x25200.size a) (S32x85x25200.size a)).extent (S16x8x25200.size a)) fun a => Pipeline.Clip.inb (Pipeline.Clip.ok_of (hstart0_0 i a))).WholeWords (EltTy.packing .f32)
  hwxs0_0 : ∀ i : grid0.Coords, EltTy.bits .f32 = 32 ∨ (Rect.unit (s := S16x8x25200) (fun _ => 0) (fun a => (Pipeline.Clip.of (cc0_transform_0 i a) (S16x8x25200.size a) (S32x85x25200.size a)).extent (S16x8x25200.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x25200.size a ≤ S32x25200.size a
  hwx0_1 : ∀ i : grid0.Coords, EltTy.bits .f32 = 32 ∨ (Rect.block (s := S32x25200) S16x25200.size (cc0_transform_1 i) (hinb0_1 i)).WholeWords (EltTy.packing .f32)

variable [Facts₀]

abbrev win0_0 : Pipeline.Window sig grid0 :=
  Pipeline.Window.ofSpecClip (Memref.whole main_arg0) S16x8x25200.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S16x25200.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x85x25200 : Shape := ⟨3, ![32, 85, 25200]⟩
abbrev S32x25200x85 : Shape := ⟨3, ![32, 25200, 85]⟩
abbrev S32x25200x1 : Shape := ⟨3, ![32, 25200, 1]⟩
abbrev S32x25200 : Shape := ⟨2, ![32, 25200]⟩
abbrev S_ : Shape := ⟨0, ![]⟩
abbrev S32x25200x4 : Shape := ⟨3, ![32, 25200, 4]⟩

abbrev nBuf : Space → Nat
  | .hbm => 36
  | .vmem => 0
  | .smem => 0
  | _ => 0

abbrev bufTy : (tb : Table) → Fin (tcTables nBuf tb) → BufTy
  | .hbm, ⟨0, _⟩ => ⟨S32x85x25200, .f32⟩
  | .hbm, ⟨1, _⟩ => ⟨S32x25200x85, .f32⟩
  | .hbm, ⟨2, _⟩ => ⟨S32x25200x1, .f32⟩
  | .hbm, ⟨3, _⟩ => ⟨S32x25200, .f32⟩
  | .hbm, ⟨4, _⟩ => ⟨S32x25200x1, .f32⟩
  | .hbm, ⟨5, _⟩ => ⟨S32x25200, .f32⟩
  | .hbm, ⟨6, _⟩ => ⟨S_, .f32⟩
  | .hbm, ⟨7, _⟩ => ⟨S32x25200, .f32⟩
  | .hbm, ⟨8, _⟩ => ⟨S32x25200, .f32⟩
  | .hbm, ⟨9, _⟩ => ⟨S32x25200, .f32⟩
  | .hbm, ⟨10, _⟩ => ⟨S32x25200x1, .f32⟩
  | .hbm, ⟨11, _⟩ => ⟨S32x25200, .f32⟩
  | .hbm, ⟨12, _⟩ => ⟨S32x25200x1, .f32⟩
  | .hbm, ⟨13, _⟩ => ⟨S32x25200, .f32⟩
  | .hbm, ⟨14, _⟩ => ⟨S_, .f32⟩
  | .hbm, ⟨15, _⟩ => ⟨S32x25200, .f32⟩
  | .hbm, ⟨16, _⟩ => ⟨S32x25200, .f32⟩
  | .hbm, ⟨17, _⟩ => ⟨S32x25200, .f32⟩
  | .hbm, ⟨18, _⟩ => ⟨S32x25200x1, .f32⟩
  | .hbm, ⟨19, _⟩ => ⟨S32x25200, .f32⟩
  | .hbm, ⟨20, _⟩ => ⟨S32x25200, .f32⟩
  | .hbm, ⟨21, _⟩ => ⟨S32x25200x1, .f32⟩
  | .hbm, ⟨22, _⟩ => ⟨S32x25200, .f32⟩
  | .hbm, ⟨23, _⟩ => ⟨S32x25200, .f32⟩
  | .hbm, ⟨24, _⟩ => ⟨S32x25200x1, .f32⟩
  | .hbm, ⟨25, _⟩ => ⟨S32x25200, .f32⟩
  | .hbm, ⟨26, _⟩ => ⟨S_, .f32⟩
  | .hbm, ⟨27, _⟩ => ⟨S32x25200, .f32⟩
  | .hbm, ⟨28, _⟩ => ⟨S32x25200, .i1⟩
  | .hbm, ⟨29, _⟩ => ⟨S_, .f32⟩
  | .hbm, ⟨30, _⟩ => ⟨S32x25200, .f32⟩
  | .hbm, ⟨31, _⟩ => ⟨S32x25200, .f32⟩
  | .hbm, ⟨32, _⟩ => ⟨S_, .f32⟩
  | .hbm, ⟨33, _⟩ => ⟨S32x25200x4, .f32⟩
  | .hbm, ⟨34, _⟩ => ⟨S32x25200x4, .i32⟩
  | .hbm, ⟨35, _⟩ => ⟨S_, .i32⟩
  | _, _ => ⟨S32x85x25200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst_1 : Ref sig .tc := ⟨.hbm, 26, rfl⟩
abbrev main_v23 : Ref sig .tc := ⟨.hbm, 27, rfl⟩
abbrev main_v24 : Ref sig .tc := ⟨.hbm, 28, rfl⟩
abbrev main_cst_2 : Ref sig .tc := ⟨.hbm, 29, rfl⟩
abbrev main_call0_v0 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_c : Ref sig .tc := ⟨.hbm, 35, rfl⟩

abbrev nD : Nat := 1
abbrev τ : Topo := Topo.v7x

variable {F : FTy → Type} [FloatOps F]

class Facts₀ : Prop where
  transposes_S32x85x25200_S32x25200x85_0_2_1 : S32x85x25200.Transposes [0, 2, 1] S32x25200x85
  slices_S32x25200x85_S32x25200x1_0_0_0 : S32x25200x85.Slices ![0, 0, 0] S32x25200x1
  shapeCasts_S32x25200x1_S32x25200 : S32x25200x1.ShapeCasts S32x25200
  slices_S32x25200x85_S32x25200x1_0_0_2 : S32x25200x85.Slices ![0, 0, 2] S32x25200x1
  bcast_S_S32x25200 : S_.BroadcastsInDim S32x25200 (![] : Fin 0 → Fin S32x25200.rank)
  slices_S32x25200x85_S32x25200x1_0_0_1 : S32x25200x85.Slices ![0, 0, 1] S32x25200x1
  slices_S32x25200x85_S32x25200x1_0_0_3 : S32x25200x85.Slices ![0, 0, 3] S32x25200x1
  slices_S32x25200x85_S32x25200x1_0_0_4 : S32x25200x85.Slices ![0, 0, 4] S32x25200x1
  bcast_S_S32x25200x4 : S_.BroadcastsInDim S32x25200x4 (![] : Fin 0 → Fin S32x25200x4.rank)

variable [Facts₀]

class Facts : Prop extends Facts₀ where

variable [Facts]
-- ==== Proof.KernelBody.lean ====
/-
  The frame run of the thresholding kernel, at any float instance.

  The pallas_call walks a grid of two points. At point t the input window stages rows 16t … 16t+15 and channels
  0 … 7 of the [32, 85, 25200] array as a [16, 8, 25200] block, and the output window writes rows 16t … 16t+15 of
  the [32, 25200] result back. The body loads the staged block whole, takes channel 4 of it, compares it with the
  threshold, replaces what exceeds it by zero, and stores the [16, 25200] result whole.

  The channel axis (85) is not a multiple of the block's 8 channels, so the input window is one whose blocks MAY
  overhang the array, and its staging buffer is described, before and after the body, as "the block's part inside
  the array, filled out by contents nothing names". Only channel block 0 is ever staged here, which lies inside
  the array: the cut is no cut at any grid point (`clip_none`), the filled-out block does not depend on the
  filler (`fill_any`), and what the body stores is a function of the array's block alone.

  This module gives the proof data (`dats`), the body's triple (`sound_kernel`), the body obligation and the frame
  run (`run_main`), whose post names the result array after the run and every other buffer after the three host
  lines that follow the region.
-/
import proofs.«168692_j19739669692975_2_alg».proof.Proof.Gen.Kernel.Frame
import proofs.«168692_j19739669692975_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's two accesses and what it stores -/

/-- The whole staged input block, as the body's load names it. -/
abbrev rIn : Rect S16x8x25200 := Rect.unit (s := S16x8x25200) ![0, 0, 0] S16x8x25200.size inb_S16x8x25200_S16x8x25200_0_0_0
/-- The whole output block, as the body's store names it. -/
abbrev rOut : Rect S16x25200 := Rect.unit (s := S16x25200) ![0, 0] S16x25200.size inb_S16x25200_S16x25200_0_0

/-- What the output's staging buffer holds after the body, from the contents `x0` of the input's: the one whole
    store of the thresholded channel 4 of `x0`. -/
def stored (x0 : Vec F S16x8x25200 .f32) : Vec F S16x25200 .f32 :=
  View.canon [⟨rOut, k0_pay1 (View.ld x0 rIn)⟩]

/-- The one store covers the output block. -/
theorem cover_out (p0 : Vec F S16x25200 .f32) (y : S16x25200.Idx) :
    ∃ pc ∈ ([⟨rOut, p0⟩] : List (View.Piece (Elt F) S16x25200 .f32)), y ∈ pc.1.set :=
  View.cover_of_tiled [⟨rOut, p0⟩] S16x25200.size (by rfl) y

/-! ## The body's triple -/

set_option maxHeartbeats 1000000 in
/-- The body on whole staging memrefs, the input's at contents `x0` and the output's at anything, runs to the
    continuation with the input's as it was and the output's at `stored x0`. -/
theorem sound_kernel (c : Dev nD) (E : Set ℕ) (i : grid0.Coords) (arg1 : Memref sig .tc .vmem S16x8x25200 .f32) (harg1 : arg1.IsWhole)
    (arg2 : Memref sig .tc .vmem S16x25200 .f32) (harg2 : arg2.IsWhole)
    (x0 : Vec F S16x8x25200 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (stored x0)) -∗ K ⟨⟩))
      ⊢ wp frame (wpE (defs₀ (F := F)) Variants.none c none) E (cc0__threshold_kernel i arg1 harg1 arg2 harg2) K := by
  simp only [cc0__threshold_kernel_eq_skeleton]; unfold cc0__threshold_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

/-! ## The input window's cut is no cut -/

/-- At neither grid point does the input window's transfer cut its block: channel block 0 lies inside the array. -/
theorem clip_none : ∀ (t : Fin cfg0.N) (a : Fin 3), win0_0.clip (grid0.coords t) a = none :=
  (by decide +kernel : ∀ (t : Fin grid0.N) (a : Fin 3), win0_0.clip (grid0.coords t) a = none)

/-- So the block filled out to the staging buffer's shape takes nothing from the filler. -/
theorem fill_any {α : Type} (t : Fin cfg0.N) (d d' : S16x8x25200.Idx → α) (g : (win0_0.xblock (grid0.coords t)).Idx → α) :
    win0_0.fill (grid0.coords t) d g = win0_0.fill (grid0.coords t) d' g := by
  funext j
  have hm : win0_0.moved (grid0.coords t) j = true :=
    (win0_0.moved_iff _ j).mpr fun a => by have := (j a).isLt; unfold Window.xsize; rw [clip_none t a]; exact this
  unfold Window.fill; rw [dif_pos hm, dif_pos hm]

/-! ## The pipeline's proof data -/

/-- The input array's block at point `t` in the staging buffer's shape. -/
def xfull (c : Dev nD) (t : Fin cfg0.N) : S16x8x25200.Idx → Elt F .f32 :=
  win0_0.fill (grid0.coords t) (fun _ => Scalar.ofBits .f32 0#32) (iblk m c 0 t)

theorem fill_eq_xfull (c : Dev nD) (t : Fin cfg0.N) (d : S16x8x25200.Idx → Elt F .f32) :
    win0_0.fill (grid0.coords t) d (iblk m c 0 t) = xfull m c t := fill_any t _ _ _

/-- The proof data of the one pipeline on core `c`: the arrays as the region finds them; after the body at point
    `t` the input's buffer at its block and the output's at what the body stores from it; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => stored (xfull m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfull m c t := by dsimp only [dats]
theorem after0_1 (c : Dev nD) (t : Fin cfg0.N) : (dats m 0 c).after 1 t = stored (xfull m c t) := by dsimp only [dats]

/-- The input's buffer, fetched at every point, holds its block there. -/
theorem before0_0 (c : Dev nD) (t : Fin cfg0.N) (d) : (dats m 0 c).before 0 t d = xfull m c t := by
  rw [(dats m 0 c).before_fetched 0 t (fetch0_0 t)]
  unfold Dat.fetched Dat.blockOf
  rw [A_eq]
  exact fill_eq_xfull m c t d

/-- The output's buffer, written back at every point, is fresh at every point. -/
theorem before0_1 (c : Dev nD) (t : Fin cfg0.N) (d) : (dats m 0 c).before 1 t d = d :=
  (dats m 0 c).before_out_reset 1 rfl t (by
    rcases Nat.eq_zero_or_pos t.val with h | h
    · exact .inl h
    · exact .inr ⟨by omega, flush0_1 _⟩) d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns: the input's buffer described on the part its transfers move, the output's whole. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (xfull m c t) _)
  isplitl [H0]; · iexact H0
  isplitl [H1]; · iexists _; iexact H1
  iintro ⟨H0, H1⟩
  isplitl [HΦ]; · iexact HΦ
  isplitl [Ho]; · iexact Ho
  isplitl [H0]
  · iexists (xfull m c t)
    rw [win0_0.fill_cut]
    iexact H0
  iexact H1

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters: every weakly fair execution of @main terminates, and every
    final state has each array of the pipeline at what the write-backs leave and every other unscoped buffer as the
    host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run terminates, nothing faults, and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Body

end
-- ==== Proof.KernelIdealBody.lean ====
/-
  The frame run of the thresholding kernel, at any float instance.

  The pallas_call walks a grid of two points. At point t the input window stages rows 16t … 16t+15 and channels
  0 … 7 of the [32, 85, 25200] array as a [16, 8, 25200] block, and the output window writes rows 16t … 16t+15 of
  the [32, 25200] result back. The body loads the staged block whole, takes channel 4 of it, compares it with the
  threshold, replaces what exceeds it by zero, and stores the [16, 25200] result whole.

  The channel axis (85) is not a multiple of the block's 8 channels, so the input window is one whose blocks MAY
  overhang the array, and its staging buffer is described, before and after the body, as "the block's part inside
  the array, filled out by contents nothing names". Only channel block 0 is ever staged here, which lies inside
  the array: the cut is no cut at any grid point (`clip_none`), the filled-out block does not depend on the
  filler (`fill_any`), and what the body stores is a function of the array's block alone.

  This module gives the proof data (`dats`), the body's triple (`sound_kernel`), the body obligation and the frame
  run (`run_main`), whose post names the result array after the run and every other buffer after the three host
  lines that follow the region.
-/
import proofs.«168692_j19739669692975_2_alg».proof.Proof.Gen.KernelIdeal.Frame
import proofs.«168692_j19739669692975_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's two accesses and what it stores -/

/-- The whole staged input block, as the body's load names it. -/
abbrev rIn : Rect S16x8x25200 := Rect.unit (s := S16x8x25200) ![0, 0, 0] S16x8x25200.size inb_S16x8x25200_S16x8x25200_0_0_0
/-- The whole output block, as the body's store names it. -/
abbrev rOut : Rect S16x25200 := Rect.unit (s := S16x25200) ![0, 0] S16x25200.size inb_S16x25200_S16x25200_0_0

/-- What the output's staging buffer holds after the body, from the contents `x0` of the input's: the one whole
    store of the thresholded channel 4 of `x0`. -/
def stored (x0 : Vec F S16x8x25200 .f32) : Vec F S16x25200 .f32 :=
  View.canon [⟨rOut, k0_pay1 (View.ld x0 rIn)⟩]

/-- The one store covers the output block. -/
theorem cover_out (p0 : Vec F S16x25200 .f32) (y : S16x25200.Idx) :
    ∃ pc ∈ ([⟨rOut, p0⟩] : List (View.Piece (Elt F) S16x25200 .f32)), y ∈ pc.1.set :=
  View.cover_of_tiled [⟨rOut, p0⟩] S16x25200.size (by rfl) y

/-! ## The body's triple -/

set_option maxHeartbeats 1000000 in
/-- The body on whole staging memrefs, the input's at contents `x0` and the output's at anything, runs to the
    continuation with the input's as it was and the output's at `stored x0`. -/
theorem sound_kernel (c : Dev nD) (E : Set ℕ) (i : grid0.Coords) (arg1 : Memref sig .tc .vmem S16x8x25200 .f32) (harg1 : arg1.IsWhole)
    (arg2 : Memref sig .tc .vmem S16x25200 .f32) (harg2 : arg2.IsWhole)
    (x0 : Vec F S16x8x25200 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (stored x0)) -∗ K ⟨⟩))
      ⊢ wp frame (wpE (defs₀ (F := F)) Variants.none c none) E (cc0__threshold_kernel i arg1 harg1 arg2 harg2) K := by
  simp only [cc0__threshold_kernel_eq_skeleton]; unfold cc0__threshold_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

/-! ## The input window's cut is no cut -/

/-- At neither grid point does the input window's transfer cut its block: channel block 0 lies inside the array. -/
theorem clip_none : ∀ (t : Fin cfg0.N) (a : Fin 3), win0_0.clip (grid0.coords t) a = none :=
  (by decide +kernel : ∀ (t : Fin grid0.N) (a : Fin 3), win0_0.clip (grid0.coords t) a = none)

/-- So the block filled out to the staging buffer's shape takes nothing from the filler. -/
theorem fill_any {α : Type} (t : Fin cfg0.N) (d d' : S16x8x25200.Idx → α) (g : (win0_0.xblock (grid0.coords t)).Idx → α) :
    win0_0.fill (grid0.coords t) d g = win0_0.fill (grid0.coords t) d' g := by
  funext j
  have hm : win0_0.moved (grid0.coords t) j = true :=
    (win0_0.moved_iff _ j).mpr fun a => by have := (j a).isLt; unfold Window.xsize; rw [clip_none t a]; exact this
  unfold Window.fill; rw [dif_pos hm, dif_pos hm]

/-! ## The pipeline's proof data -/

/-- The input array's block at point `t` in the staging buffer's shape. -/
def xfull (c : Dev nD) (t : Fin cfg0.N) : S16x8x25200.Idx → Elt F .f32 :=
  win0_0.fill (grid0.coords t) (fun _ => Scalar.ofBits .f32 0#32) (iblk m c 0 t)

theorem fill_eq_xfull (c : Dev nD) (t : Fin cfg0.N) (d : S16x8x25200.Idx → Elt F .f32) :
    win0_0.fill (grid0.coords t) d (iblk m c 0 t) = xfull m c t := fill_any t _ _ _

/-- The proof data of the one pipeline on core `c`: the arrays as the region finds them; after the body at point
    `t` the input's buffer at its block and the output's at what the body stores from it; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => stored (xfull m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfull m c t := by dsimp only [dats]
theorem after0_1 (c : Dev nD) (t : Fin cfg0.N) : (dats m 0 c).after 1 t = stored (xfull m c t) := by dsimp only [dats]

/-- The input's buffer, fetched at every point, holds its block there. -/
theorem before0_0 (c : Dev nD) (t : Fin cfg0.N) (d) : (dats m 0 c).before 0 t d = xfull m c t := by
  rw [(dats m 0 c).before_fetched 0 t (fetch0_0 t)]
  unfold Dat.fetched Dat.blockOf
  rw [A_eq]
  exact fill_eq_xfull m c t d

/-- The output's buffer, written back at every point, is fresh at every point. -/
theorem before0_1 (c : Dev nD) (t : Fin cfg0.N) (d) : (dats m 0 c).before 1 t d = d :=
  (dats m 0 c).before_out_reset 1 rfl t (by
    rcases Nat.eq_zero_or_pos t.val with h | h
    · exact .inl h
    · exact .inr ⟨by omega, flush0_1 _⟩) d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns: the input's buffer described on the part its transfers move, the output's whole. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (xfull m c t) _)
  isplitl [H0]; · iexact H0
  isplitl [H1]; · iexists _; iexact H1
  iintro ⟨H0, H1⟩
  isplitl [HΦ]; · iexact HΦ
  isplitl [Ho]; · iexact Ho
  isplitl [H0]
  · iexists (xfull m c t)
    rw [win0_0.fill_cut]
    iexact H0
  iexact H1

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters: every weakly fair execution of @main terminates, and every
    final state has each array of the pipeline at what the write-backs leave and every other unscoped buffer as the
    host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run terminates, nothing faults, and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Body

end
-- ==== Proof.Score.lean ====
/-
  The specification both programs are compared with: the score channel of the detector's output, thresholded.

  For an array `x` of shape [32, 85, 25200] (batch, channel, anchor) the result at (b, n) is the score x[b, 4, n]
  where it does not exceed the threshold 0.15 (the float word 0x3E19999A) and zero where it does. Both programs
  compute it with the same three operations (a strict ordered comparison, the zero word, a select), so it is
  stated at any float instance, over the operations themselves; no law of the extended reals is needed.
-/
import Idealize.ShloMosaic.PureOps
import Idealize.ShloMosaic.Lib.ValueIdx

noncomputable section

namespace Cert.Score

open Idealize.ShloMosaic Idealize.ShloMosaic.ValueIdx

variable {F : FTy → Type} [FloatOps F]

/-- One score thresholded: zero if it exceeds 0.15, else itself. -/
def thr (v : F .f32) : F .f32 :=
  Scalar.select (FloatOps.cmpf .ogt v (FloatOps.ofBits .f32 0x3E19999A#32)) (FloatOps.ofBits .f32 0x00000000#32) v

/-- The thresholded score channel of `x`: at (b, n), `thr` of x[b, 4, n]. -/
def score (x : (⟨3, ![32, 85, 25200]⟩ : Shape).Idx → F .f32) : (⟨2, ![32, 25200]⟩ : Shape).Idx → F .f32 :=
  fun i => thr (x (ix3 (n0 := 32) (n1 := 85) (n2 := 25200) (i 0) 4 (i 1)))

theorem score_apply (x : (⟨3, ![32, 85, 25200]⟩ : Shape).Idx → F .f32) (b : Fin 32) (n : Fin 25200) :
    score x (ix2 b n) = thr (x (ix3 b 4 n)) := rfl

end Cert.Score

end
-- ==== Proof.KernelIdealOut.lean ====
/-
  What the idealized kernel's program leaves in its three results.

  Point t of the grid writes back rows 16t … 16t+15 of the result. The staged input block at point t is rows
  16t … 16t+15, channels 0 … 7 of the argument, so the body's stored value at (p, q) — channel 4 of the block at
  (p, q), thresholded — is the thresholded score of the argument at (16t + p, q): the block written back is block t
  of `Score.score` of the argument. The two blocks cover the 32 rows, so the result array ends holding
  `Score.score` of the argument. The other two results are written by the host lines after the region: an integer
  zero array and the integer 32.
-/
import proofs.«168692_j19739669692975_2_alg».proof.Proof.KernelIdealBody
import proofs.«168692_j19739669692975_2_alg».proof.Proof.Score
import Idealize.ShloMosaic.Lib.Pipeline.Value
import Idealize.ShloMosaic.Lib.ValueIdx
import Idealize.ShloMosaic.Lib.StableHlo.Run

set_option maxRecDepth 16384

noncomputable section

namespace Cert.KernelIdeal.Out

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The body's stored value at an index -/

/-- The stored value at (p, q) is channel 4 of the loaded block at (p, q), thresholded. -/
theorem pay_apply (x0 : Vec F S16x8x25200 .f32) (p : Fin 16) (q : Fin 25200) :
    k0_pay1 x0 (ix2 p q) = Cert.Score.thr (x0 (ix3 p 4 q)) := by
  have e : shapeCast S16x25200 (extractStridedSlice S16x1x25200 ![0, 4, 0] x0 slices_S16x8x25200_o0_4_0_S16x1x25200)
      shapeCasts_S16x1x25200_S16x25200 (ix2 p q) = x0 (ix3 p 4 q) := by
    refine (shapeCast_apply _ shapeCasts_S16x1x25200_S16x25200 (ix2 p q) (ix3 p 0 q) ?_).trans ?_
    · rw [Shape.rowMajor_val_three, Shape.rowMajor_val_two]
      show (p.val * 1 + 0) * 25200 + q.val = p.val * 25200 + q.val
      omega
    · exact extractStridedSlice_apply ![0, 4, 0] x0 slices_S16x8x25200_o0_4_0_S16x1x25200 (ix3 p 0 q) (ix3 p 4 q) (fun a => match a with
        | ⟨0, _⟩ => by show p.val = 0 + p.val; omega
        | ⟨1, _⟩ => by show 4 = 4 + 0; rfl
        | ⟨2, _⟩ => by show q.val = 0 + q.val; omega)
  unfold k0_pay1
  show Scalar.select (FloatOps.cmpf .ogt _ _) _ _ = _
  unfold Cert.Score.thr
  rw [e]
  rfl

/-! ## The staged input block at an index -/

/-- The printed index maps, decided over the grid: the input window's block index is (t, 0, 0), the output's (t, 0). -/
theorem idx_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- The staged block at point `t` read at (p, k, q) is the argument at (16t + p, k, q). -/
theorem xfull_apply (c : Dev nD) (t : Fin cfg0.N) (p : Fin 16) (k : Fin 8) (q : Fin 25200) (i : S32x85x25200.Idx)
    (h0 : (i 0).val = 16 * t.val + p.val) (h1 : (i 1).val = k.val) (h2 : (i 2).val = q.val) :
    xfull m c t (ix3 p k q) = V m c main_arg0 i := by
  have hm : win0_0.moved (grid0.coords t) (ix3 p k q) = true :=
    (win0_0.moved_iff _ _).mpr fun a => by have := ((ix3 p k q : S16x8x25200.Idx) a).isLt; unfold Pipeline.Window.xsize; rw [clip_none t a]; exact this
  obtain ⟨e0, e1, e2, -, -⟩ := idx_facts t
  unfold xfull Pipeline.Window.fill
  rw [dif_pos hm]
  unfold iblk
  rw [View.read_apply]
  show V m c main_arg0 _ = V m c main_arg0 i
  refine congrArg _ (funext fun a => Fin.ext ?_)
  match a with
  | ⟨0, _⟩ => show win0_0.index t (0 : Fin 3) * 16 + 1 * p.val = (i 0).val; rw [e0, h0]; omega
  | ⟨1, _⟩ => show win0_0.index t (1 : Fin 3) * 8 + 1 * k.val = (i 1).val; rw [e1, h1]; omega
  | ⟨2, _⟩ => show win0_0.index t (2 : Fin 3) * 25200 + 1 * q.val = (i 2).val; rw [e2, h2]; omega

/-! ## What each point writes back, and the array after the run -/

/-- What point `t` writes back is block `t` of the thresholded score channel of the argument as the region finds it. -/
theorem flushed_eq (c : Dev nD) (t : Fin cfg0.N) :
    (dats m 0 c).flushed 1 t = ((cfg0.win 1).blk t).view.read (Elt F) (Cert.Score.score (V m c main_arg0)) := by
  show (cfg0.win 1).cut (grid0.coords t) ((dats m 0 c).after 1 t) = _
  rw [after0_1]
  unfold stored
  rw [View.canon_unit_zero hz2]
  simp only [View.ld_unit_zero (S := S16x8x25200) hz3]
  obtain ⟨-, -, -, e3, e4⟩ := idx_facts t
  funext j
  obtain ⟨p, q, rfl⟩ : ∃ (p : Fin 16) (q : Fin 25200), j = ix2 p q := ⟨j 0, j 1, eq_ix2 j⟩
  show k0_pay1 (xfull m c t) (ix2 p q) = Cert.Score.score (V m c main_arg0) (((cfg0.win 1).blk t).view.emb (ix2 p q))
  rw [pay_apply]
  refine congrArg Cert.Score.thr (xfull_apply m c t p 4 q _ ?_ ?_ ?_)
  · show win0_1.index t (0 : Fin 2) * 16 + 1 * p.val = 16 * t.val + p.val; rw [e3]; omega
  · rfl
  · show win0_1.index t (1 : Fin 2) * 25200 + 1 * q.val = q.val; rw [e4]; omega

/-- An index of the result array is in point `t`'s block iff each coordinate is in the block's range on its axis. -/
theorem mem_blk (t : Fin cfg0.N) (i : S32x25200.Idx) :
    i ∈ ((cfg0.win 1).blk t).view.set ↔ ∀ a : Fin 2, win0_1.index t a * S16x25200.size a ≤ (i a).val ∧ (i a).val < win0_1.index t a * S16x25200.size a + S16x25200.size a := by
  show i ∈ ((View.whole main_v0).slice (win0_1.rect t)).set ↔ _
  rw [View.set_slice_whole, Rect.mem_set_unit]
  exact Iff.rfl

/-- Row r of the result lies in the block of point r / 16: the two blocks cover the array. -/
theorem cover (i : S32x25200.Idx) : ∃ t : Fin cfg0.N, (cfg0.win 1).flush t = true ∧ i ∈ ((cfg0.win 1).blk t).view.set := by
  have hi0 : (i 0).val < 32 := (i 0).isLt
  have hi1 : (i 1).val < 25200 := (i 1).isLt
  have hN : cfg0.N = 2 := N_0
  have ht : (i 0).val / 16 < cfg0.N := by rw [hN]; omega
  obtain ⟨-, -, -, e3, e4⟩ := idx_facts ⟨(i 0).val / 16, ht⟩
  refine ⟨⟨(i 0).val / 16, ht⟩, flush0_1 _, ?_⟩
  rw [mem_blk]
  intro a
  match a with
  | ⟨0, _⟩ =>
    show win0_1.index ⟨(i 0).val / 16, ht⟩ (0 : Fin 2) * 16 ≤ (i 0).val ∧ (i 0).val < win0_1.index ⟨(i 0).val / 16, ht⟩ (0 : Fin 2) * 16 + 16
    rw [e3]; show (i 0).val / 16 * 16 ≤ (i 0).val ∧ (i 0).val < (i 0).val / 16 * 16 + 16; omega
  | ⟨1, _⟩ =>
    show win0_1.index ⟨(i 0).val / 16, ht⟩ (1 : Fin 2) * 25200 ≤ (i 1).val ∧ (i 1).val < win0_1.index ⟨(i 0).val / 16, ht⟩ (1 : Fin 2) * 25200 + 25200
    rw [e4]; omega

/-- The result array after the run: the thresholded score channel of the argument as the region finds it. -/
theorem final (c : Dev nD) : (dats m 0 c).arrAt 1 cfg0.N = Cert.Score.score (V m c main_arg0) :=
  (dats m 0 c).arrAt_eq_of_cover 1 _ (fun t _ => flushed_eq m c t) cover

/-! ## The two results the host lines after the region write -/

/-- The batch size: the integer 32. -/
theorem tail_count (c : Dev nD) :
    Pipeline.afterTail₀ cfgs (dats m) 0 (V0 m) [hostOps1] c main_c_0 = constantI S_ 32 32#32 := by
  unfold Pipeline.afterTail₀
  show StableHlo.after hostOps1 _ (Proc.devRef .tc main_c_0) = _
  after_results <;> rfl

/-- The boxes: an integer array of zeros. -/
theorem tail_boxes (c : Dev nD) :
    Pipeline.afterTail₀ cfgs (dats m) 0 (V0 m) [hostOps1] c main_v1 = (fun _ => (0#32 : BitVec 32)) := by
  unfold Pipeline.afterTail₀
  show StableHlo.after hostOps1 _ (Proc.devRef .tc main_v1) = _
  after_results <;> rfl

/-! ## The run, read -/

/-- Every weakly fair execution of the program terminates with the batch size at 32, the boxes at zero, the result
    array at the thresholded score channel of the argument, and the argument unchanged. -/
theorem run : θ_run defs (onTc (τ := τ) (main (F := F))) ⟨m, fun _ => 0, ρ⟩ fun r => ∀ c : Dev nD,
      r.2.mem ((c.tc : Thread nD τ).loc main_c_0) = constantI S_ 32 32#32
      ∧ r.2.mem ((c.tc : Thread nD τ).loc main_v1) = (fun _ => (0#32 : BitVec 32))
      ∧ r.2.mem ((c.tc : Thread nD τ).loc main_v0) = Cert.Score.score (m ((c.tc : Thread nD τ).loc main_arg0))
      ∧ r.2.mem ((c.tc : Thread nD τ).loc main_arg0) = m ((c.tc : Thread nD τ).loc main_arg0) :=
  (θ_run defs _ _).mono (fun r h c => ⟨
      ((h c).2 main_c_0 (Pipeline.mem_restRefs_of main_c_0 (by decide) (by decide))).trans (tail_count m c),
      ((h c).2 main_v1 (Pipeline.mem_restRefs_of main_v1 (by decide) (by decide))).trans (tail_boxes m c),
      ((h c).1 1).trans ((final m c).trans (by rw [V_main_arg0])),
      ((h c).1 0).trans (((dats m 0 c).arrAt_in 0 rfl _).trans ((A_eq m c 0).trans (V_main_arg0 m c)))⟩)
    (run_main m ρ)

end Cert.KernelIdeal.Out

end
-- ==== Proof.LibFptosiZero.lean ====
/-
  Converting zero to an integer, at the extended reals.

  At the exact instance a float is an extended real, and the conversion to a signed integer of width w truncates a
  real toward zero and clamps it to [-2^(w-1), 2^(w-1) - 1]. The real 0 lies in that range for every w and is its
  own truncation, so it converts to the integer 0; in particular the all-zero f32 word, which denotes the real 0,
  does. (This is what `jnp.zeros(…, float32).astype(int32)` needs to be compared with an integer zero array.)
-/
import Idealize.ShloMosaic.PureOps.Ideal.Laws

namespace Cert.LibFptosiZero

open Idealize.ShloMosaic

/-- The extended real 0 converts to the integer 0 at every width: 0 is its own truncation and lies between the
    two clamps. -/
theorem fptosi_zero (w : Nat) : Ideal.fptosi w (0 : EReal) = 0#w := by
  have h : (1 : Int) ≤ ((2 ^ (w - 1) : Nat) : Int) := by exact_mod_cast Nat.one_le_two_pow
  rw [← EReal.coe_zero]
  unfold Ideal.fptosi
  rw [Ideal.toIntClamped_coe]
  simp only [le_refl, if_true, Int.floor_zero]
  rw [min_eq_right (by omega), max_eq_right (by omega)]
  rfl

/-- The all-zero f32 word denotes the real 0, so it converts to the integer 0 at every width. -/
theorem fptosi_zero_f32 (w : Nat) : Ideal.fptosi w (Ideal.ofBits .f32 0x00000000#32) = 0#w := by
  rw [Ideal.ofBits_zero_f32]; exact fptosi_zero w

end Cert.LibFptosiZero
-- ==== Proof.RefValue.lean ====
/-
  What the idealized reference leaves in its three results, read off its run.

  The reference transposes the argument to [32, 25200, 85], slices channel 4, drops the unit axis, and applies the
  same comparison, zero word and select as the kernel: at (b, n) that is the thresholded score of the argument at
  (b, 4, n) — `Score.score` of the argument, at any float instance. Its boxes are the float zero array converted to
  integers, which at the extended reals is the integer zero array (the conversion truncates the real 0 to 0).
-/
import proofs.«168692_j19739669692975_2_alg».proof.Proof.ReadP
import proofs.«168692_j19739669692975_2_alg».proof.Proof.Score
import Idealize.ShloMosaic.Lib.ValueIdx
import proofs.«168692_j19739669692975_2_alg».proof.Proof.LibFptosiZero

noncomputable section

namespace Cert.ReferenceIdeal.RefValue

open Cert.ReferenceIdeal Cert.ReferenceIdeal.Gen Cert.ReferenceIdeal.ReadP
open Idealize.ShloMosaic Idealize.ShloMosaic.ValueIdx

variable {F : FTy → Type} [FloatOps F]

/-- The sliced and reshaped channel at (b, n) is the argument at (b, 4, n). -/
theorem channel_apply (x0 : (⟨S32x85x25200, .f32⟩ : BufTy).Contents (Elt F)) (b : Fin 32) (n : Fin 25200) :
    val_main_v22 (F := F) x0 (ix2 b n) = x0 (ix3 b 4 n) := by
  rw [val_main_v22_apply, val_main_v21_apply, val_main_v0_apply]
  refine congrArg x0 (funext fun a => Fin.ext ?_)
  match a with
  | ⟨0, _⟩ => show (b.val * 25200 + n.val) / 25200 = b.val; omega
  | ⟨1, _⟩ => rfl
  | ⟨2, _⟩ => show (b.val * 25200 + n.val) / 1 % 25200 = n.val; omega

/-- The reference's float result is the thresholded score channel of its argument. -/
theorem score_eq (x0 : (⟨S32x85x25200, .f32⟩ : BufTy).Contents (Elt F)) :
    val_main_v25 (F := F) x0 = Cert.Score.score x0 := by
  funext i
  obtain ⟨b, n, rfl⟩ : ∃ (b : Fin 32) (n : Fin 25200), i = ix2 b n := ⟨i 0, i 1, eq_ix2 i⟩
  rw [val_main_v25_apply, val_main_v24_apply, channel_apply, val_main_v23_apply, val_main_call0_v0_apply,
    val_main_cst_1_apply, val_main_cst_2_apply]
  rfl

/-- The reference's boxes, at the extended reals: the integer zero array. -/
theorem boxes_eq : val_main_v27 (F := Ideal) = (fun _ => (0#32 : BitVec 32)) := by
  funext i
  rw [val_main_v27_apply, val_main_v26_apply, val_main_cst_3_apply]
  exact Cert.LibFptosiZero.fptosi_zero_f32 32

end Cert.ReferenceIdeal.RefValue

end
-- ==== Proof.lean ====
/-
  The kernel thresholds the score channel of a detector's output, and so does the reference.

  The argument is an array x of shape [32, 85, 25200] (batch, channel, anchor). The kernel's pallas_call stages, at
  each of two grid points, sixteen batch rows of channels 0 … 7, takes channel 4, and stores
  `where(x > 0.15, 0, x)` into sixteen rows of the [32, 25200] result; after it the program writes an integer zero
  array of shape [32, 25200, 4] and the integer 32. The reference transposes x, slices channel 4 and applies the
  same comparison and select; its boxes are a float zero array converted to integers, and its count the integer 32.

  Both float results are one function of the argument, `Score.score`: at (b, n) the score x[b, 4, n] where it does
  not exceed the threshold and zero where it does — the same operations on both sides, so no law of the extended
  reals is used and the precondition (finite inputs) is never opened. The integer results agree because converting
  the real number 0 to an integer gives 0.

  The three frames: the kernel's program at the word level and at the extended reals by the body's triple and the
  pipeline's frame run (the input window's blocks lie inside the array at both grid points although the channel
  axis is not a multiple of the block's eight channels); the reference's by its run. The idealization rewrote no
  operation, so nothing is owed for it.
-/
import proofs.«168692_j19739669692975_2_alg».proof.Defs
import proofs.«168692_j19739669692975_2_alg».proof.Proof.Gen.Kernel
import proofs.«168692_j19739669692975_2_alg».proof.Proof.Gen.KernelIdeal
import proofs.«168692_j19739669692975_2_alg».proof.Proof.Gen.ReferenceIdeal
import proofs.«168692_j19739669692975_2_alg».proof.Proof.Gen.Pre_finite_inputs
import proofs.«168692_j19739669692975_2_alg».proof.Proof.KernelBody
import proofs.«168692_j19739669692975_2_alg».proof.Proof.KernelIdealBody
import proofs.«168692_j19739669692975_2_alg».proof.Proof.KernelIdealOut
import proofs.«168692_j19739669692975_2_alg».proof.Proof.RefValue
import Idealize.ShloMosaic.Adequacy
import Idealize.ShloMosaic.Init

noncomputable section

namespace Cert.Proof

open Idealize.ShloMosaic Idealize.ShloMosaic.TcCoe Idealize.SL.Sem

/-- The kernel's program as printed runs to the end, faults nowhere and leaves its argument unchanged. -/
theorem frame_kernel : Cert.frame_Kernel := fun m ρ _ => Cert.Kernel.Body.frame (F := Bits) m ρ

/-- So does its reading at the extended reals. -/
theorem frame_kernel_ideal : Cert.frame_KernelIdeal := fun m ρ _ => Cert.KernelIdeal.Body.frame (F := Ideal) m ρ

/-- The reference's frame is its run with the results dropped. -/
theorem frame_reference : Cert.frame_ReferenceIdeal := fun m ρ _ =>
  (θ_run Cert.ReferenceIdeal.defs _ _).mono (fun _ h c => (h c).2.2.2) (Cert.ReferenceIdeal.ValueP.run (F := Ideal) m ρ)

/-- From memories that agree on the argument both programs end with the count 32, the boxes zero, and the float
    result the thresholded score channel of the argument. -/
theorem algebraic : Cert.algebraic_KernelIdeal_ReferenceIdeal := by
  intro m ρ m' ρ' _ hagree
  refine ⟨_, _, _, Cert.KernelIdeal.Out.run (F := Ideal) m ρ, ?_⟩
  refine (θ_run Cert.ReferenceIdeal.defs _ _).mono (fun _ h c => ⟨(h c).1, (h c).2.1.trans ?_, (h c).2.2.1.trans ?_, (h c).2.2.2⟩)
    (Cert.ReferenceIdeal.ValueP.run (F := Ideal) m' ρ')
  · rw [Cert.ReferenceIdeal.ReadP.val_main_v27_eq]; exact Cert.ReferenceIdeal.RefValue.boxes_eq
  · rw [Cert.ReferenceIdeal.ReadP.val_main_v25_eq, Cert.ReferenceIdeal.RefValue.score_eq, hagree c]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
